-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x47 : Shape := ⟨2, ![128, 47]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_

variable [Facts]

def fn_part1 {F : FTy → Type} [FloatOps F] (main_arg4 : FVec F S128x128 .f32) (main_arg5 : FVec F S128x47 .f32) (main_arg6 : FVec F S128x47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x47 .f32 := Host.absf main_arg5
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S128x47 .f32 := Host.absf main_arg6
  let main_cst_10 : FVec F S_ .f32 := constant S_ .f32 0x7F800000#32
  let main_v30 : FVec F S128x47 .f32 := broadcastInDim S128x47 ![] bcast_S_S128x47 main_cst_10
  let main_v31 : IVec S128x47 1 := cmpf .olt main_v29 main_v30
  let main_c_11 : IVec S_ 1 := constantI S_ 1 1#1
  let main_v32 : IVec S_ 1 := (fun x v => Host.reduce IntOp.andi x v reducesTo_S128x47_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128x128 .f32) (main_arg4 : FVec F S128x128 .f32) (main_arg5 : FVec F S128x47 .f32) (main_arg6 : FVec F S128x47 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128x47 : Shape := ⟨2, ![128, 47]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S100000x47 : Shape := ⟨2, ![100000, 47]⟩
abbrev S5000x47 : Shape := ⟨2, ![5000, 47]⟩

abbrev nBuf : Space → Nat
  | .hbm => 87
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x47, .f32⟩
  | .hbm, ⟨6, _⟩ => ⟨S128x47, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S_, .f32⟩
  | .hbm, ⟨75, _⟩ => ⟨S1600000, .f32⟩
  | .hbm, ⟨76, _⟩ => ⟨S_, .f32⟩
  | .hbm, ⟨77, _⟩ => ⟨S100000, .f32⟩
  | .hbm, ⟨78, _⟩ => ⟨S1600000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x47, .f32⟩
  | .local _ .vmem, ⟨21, _⟩ => ⟨S128x47, .f32⟩
  | .local _ .vmem, ⟨22, _⟩ => ⟨S5000x47, .f32⟩
  | .local _ .vmem, ⟨23, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x47 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x47.size a ≤ S100000x47.size a
  hwx2_4 : ∀ i : grid2.Coords, EltTy.bits .f32 = 32 ∨ (Rect.block (s := S100000x47) S5000x47.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S5000x47.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x47 : Shape := ⟨2, ![128, 47]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x47 : Shape := ⟨2, ![100000, 47]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x47, .f32⟩
  | .hbm, ⟨6, _⟩ => ⟨S128x47, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S_, .f32⟩
  | .hbm, ⟨85, _⟩ => ⟨S1600000, .f32⟩
  | .hbm, ⟨86, _⟩ => ⟨S_, .f32⟩
  | .hbm, ⟨87, _⟩ => ⟨S100000, .f32⟩
  | .hbm, ⟨88, _⟩ => ⟨S1600000x1, .i32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x47, .f32⟩
  | .hbm, ⟨97, _⟩ => ⟨S100000x47, .f32⟩
  | .hbm, ⟨98, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Payload.lean ====
/-
  What one grid point's body stores, entry by entry.

  A body loads a 5000-row block `x0` of the node features, the matching block `x1` of the neighbourhood means and
  the two whole weight matrices `x2`, `x3`; it multiplies `x0` by `x2` and `x1` by `x3` on the matrix unit, each
  into a zero accumulator, adds the two products and (in the two hidden layers) takes the maximum with zero. Over
  the extended reals a change of float format is the identity and a product into a zero accumulator is the plain
  sum over the 128 contracted coordinates, so the stored entry (p, q) is

      max ( ∑ₖ x0[p,k]·x2[k,q] + ∑ₖ x1[p,k]·x3[k,q] ) 0        (no maximum in the output layer).
-/
import proofs.«104483_j29841432773054_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Sage.Block

open Idealize.ShloMosaic Idealize.ShloMosaic.ValueIdx Cert.KernelIdeal Cert.KernelIdeal.Gen

/-! ### A hidden layer's block product: [5000, 128] by [128, 128] -/

theorem kdot128_lhs0 (i : Cert.KernelIdeal.S5000x128.Idx) (κ : Cert.KernelIdeal.dot_S5000x128_S128x128_S5000x128_1_0_0_1_n_n.contr.Idx) :
    (Cert.KernelIdeal.dot_S5000x128_S128x128_S5000x128_1_0_0_1_n_n.lhsIdx i κ 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl

theorem kdot128_rhs1 (i : Cert.KernelIdeal.S5000x128.Idx) (κ : Cert.KernelIdeal.dot_S5000x128_S128x128_S5000x128_1_0_0_1_n_n.contr.Idx) :
    (Cert.KernelIdeal.dot_S5000x128_S128x128_S5000x128_1_0_0_1_n_n.rhsIdx i κ 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-- The contraction of a [5000, 128] by a [128, 128] operand at output entry (p, q): the sum over the 128 shared
    coordinates k of the left operand at (p, k) times the right operand at (k, q). -/
theorem kdot128_sum {φ₁ φ₂ : FTy} (l : FVec Ideal Cert.KernelIdeal.S5000x128 φ₁) (r : FVec Ideal Cert.KernelIdeal.S128x128 φ₂) (p : Fin 5000) (q : Fin 128) :
    (∑ κ : Cert.KernelIdeal.dot_S5000x128_S128x128_S5000x128_1_0_0_1_n_n.contr.Idx, l (Cert.KernelIdeal.dot_S5000x128_S128x128_S5000x128_1_0_0_1_n_n.lhsIdx (ix2 p q) κ) * r (Cert.KernelIdeal.dot_S5000x128_S128x128_S5000x128_1_0_0_1_n_n.rhsIdx (ix2 p q) κ) : EReal)
      = ∑ k : Fin 128, l (ix2 p k) * r (ix2 k q) := by
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k :=
    funext fun a => Fin.ext (by
      match a with
      | ⟨0, _⟩ => exact kdot128_lhs0 _ _
      | ⟨1, _⟩ => exact (Cert.KernelIdeal.dot_S5000x128_S128x128_S5000x128_1_0_0_1_n_n.lhsIdx_val_of_single rfl (ix2 p q) _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q :=
    funext fun a => Fin.ext (by
      match a with
      | ⟨0, _⟩ => exact (Cert.KernelIdeal.dot_S5000x128_S128x128_S5000x128_1_0_0_1_n_n.rhsIdx_val_of_single rfl (ix2 p q) _).trans hk
      | ⟨1, _⟩ => exact kdot128_rhs1 _ _)
  rw [el, er]

/-! ### The output layer's block product: [5000, 128] by [128, 47] -/

theorem kdot47_lhs0 (i : Cert.KernelIdeal.S5000x47.Idx) (κ : Cert.KernelIdeal.dot_S5000x128_S128x47_S5000x47_1_0_0_1_n_n.contr.Idx) :
    (Cert.KernelIdeal.dot_S5000x128_S128x47_S5000x47_1_0_0_1_n_n.lhsIdx i κ 0).val = (i 0).val := by
  unfold DotDims.lhsIdx
  rw [dif_neg (show ¬(0 : Fin Cert.KernelIdeal.S5000x128.rank) ∈ Cert.KernelIdeal.dot_S5000x128_S128x47_S5000x47_1_0_0_1_n_n.lhsBatch by decide),
    dif_pos (show (0 : Fin Cert.KernelIdeal.S5000x128.rank) ∈ Cert.KernelIdeal.dot_S5000x128_S128x47_S5000x47_1_0_0_1_n_n.lhsNonContracting by decide)]
  rfl

theorem kdot47_rhs1 (i : Cert.KernelIdeal.S5000x47.Idx) (κ : Cert.KernelIdeal.dot_S5000x128_S128x47_S5000x47_1_0_0_1_n_n.contr.Idx) :
    (Cert.KernelIdeal.dot_S5000x128_S128x47_S5000x47_1_0_0_1_n_n.rhsIdx i κ 1).val = (i 1).val := by
  unfold DotDims.rhsIdx
  rw [dif_neg (show ¬(1 : Fin Cert.KernelIdeal.S128x47.rank) ∈ Cert.KernelIdeal.dot_S5000x128_S128x47_S5000x47_1_0_0_1_n_n.rhsBatch by decide),
    dif_pos (show (1 : Fin Cert.KernelIdeal.S128x47.rank) ∈ Cert.KernelIdeal.dot_S5000x128_S128x47_S5000x47_1_0_0_1_n_n.rhsNonContracting by decide)]
  rfl

/-- The contraction of a [5000, 128] by a [128, 47] operand at output entry (p, q): the sum over the 128 shared
    coordinates k of the left operand at (p, k) times the right operand at (k, q). -/
theorem kdot47_sum {φ₁ φ₂ : FTy} (l : FVec Ideal Cert.KernelIdeal.S5000x128 φ₁) (r : FVec Ideal Cert.KernelIdeal.S128x47 φ₂) (p : Fin 5000) (q : Fin 47) :
    (∑ κ : Cert.KernelIdeal.dot_S5000x128_S128x47_S5000x47_1_0_0_1_n_n.contr.Idx, l (Cert.KernelIdeal.dot_S5000x128_S128x47_S5000x47_1_0_0_1_n_n.lhsIdx (ix2 p q) κ) * r (Cert.KernelIdeal.dot_S5000x128_S128x47_S5000x47_1_0_0_1_n_n.rhsIdx (ix2 p q) κ) : EReal)
      = ∑ k : Fin 128, l (ix2 p k) * r (ix2 k q) := by
  rw [← Equiv.sum_comp (ValueIdx.contrEquiv1 Cert.KernelIdeal.dot_S5000x128_S128x47_S5000x47_1_0_0_1_n_n 128 rfl rfl).symm]
  refine Finset.sum_congr rfl fun k _ => ?_
  have hk := ValueIdx.contrEquiv1_symm_val Cert.KernelIdeal.dot_S5000x128_S128x47_S5000x47_1_0_0_1_n_n 128 rfl rfl k
  have el : Cert.KernelIdeal.dot_S5000x128_S128x47_S5000x47_1_0_0_1_n_n.lhsIdx (ix2 p q) ((ValueIdx.contrEquiv1 Cert.KernelIdeal.dot_S5000x128_S128x47_S5000x47_1_0_0_1_n_n 128 rfl rfl).symm k) = ix2 p k :=
    funext fun a => Fin.ext (by
      match a with
      | ⟨0, _⟩ => exact kdot47_lhs0 _ _
      | ⟨1, _⟩ => exact (Cert.KernelIdeal.dot_S5000x128_S128x47_S5000x47_1_0_0_1_n_n.lhsIdx_val_of_single rfl (ix2 p q) _).trans hk)
  have er : Cert.KernelIdeal.dot_S5000x128_S128x47_S5000x47_1_0_0_1_n_n.rhsIdx (ix2 p q) ((ValueIdx.contrEquiv1 Cert.KernelIdeal.dot_S5000x128_S128x47_S5000x47_1_0_0_1_n_n 128 rfl rfl).symm k) = ix2 k q :=
    funext fun a => Fin.ext (by
      match a with
      | ⟨0, _⟩ => exact (Cert.KernelIdeal.dot_S5000x128_S128x47_S5000x47_1_0_0_1_n_n.rhsIdx_val_of_single rfl (ix2 p q) _).trans hk
      | ⟨1, _⟩ => exact kdot47_rhs1 _ _)
  rw [el, er]

/-! ### The three bodies' stored values -/

/-- The first hidden layer's body at entry (p, q). -/
theorem pay0_apply (x0 x1 : Vec Ideal S5000x128 .f32) (x2 x3 : Vec Ideal S128x128 .f32) (p : Fin 5000) (q : Fin 128) :
    k0_pay1 (F := Ideal) x0 x1 x2 x3 (ix2 p q)
      = max ((∑ k : Fin 128, x0 (ix2 p k) * x2 (ix2 k q)) + ∑ k : Fin 128, x1 (ix2 p k) * x3 (ix2 k q))
          (Ideal.ofBits .f32 0x00000000#32) := by
  unfold k0_pay1
  rw [shapeCast_self]
  show max (FloatOps.matmul dot_S5000x128_S128x128_S5000x128_1_0_0_1_n_n none _ _ (constant S5000x128 .f32 0x00000000#32) (ix2 p q)
      + FloatOps.matmul dot_S5000x128_S128x128_S5000x128_1_0_0_1_n_n none _ _ (constant S5000x128 .f32 0x00000000#32) (ix2 p q)) _ = _
  rw [Ideal.matmul_constant_zero_apply, Ideal.matmul_constant_zero_apply, kdot128_sum, kdot128_sum]
  rfl

/-- The second hidden layer's body at entry (p, q). -/
theorem pay1_apply (x0 x1 : Vec Ideal S5000x128 .f32) (x2 x3 : Vec Ideal S128x128 .f32) (p : Fin 5000) (q : Fin 128) :
    k1_pay1 (F := Ideal) x0 x1 x2 x3 (ix2 p q)
      = max ((∑ k : Fin 128, x0 (ix2 p k) * x2 (ix2 k q)) + ∑ k : Fin 128, x1 (ix2 p k) * x3 (ix2 k q))
          (Ideal.ofBits .f32 0x00000000#32) := by
  unfold k1_pay1
  rw [shapeCast_self, shapeCast_self]
  show max (FloatOps.matmul dot_S5000x128_S128x128_S5000x128_1_0_0_1_n_n none _ _ (constant S5000x128 .f32 0x00000000#32) (ix2 p q)
      + FloatOps.matmul dot_S5000x128_S128x128_S5000x128_1_0_0_1_n_n none _ _ (constant S5000x128 .f32 0x00000000#32) (ix2 p q)) _ = _
  rw [Ideal.matmul_constant_zero_apply, Ideal.matmul_constant_zero_apply, kdot128_sum, kdot128_sum]
  rfl

/-- The output layer's body at entry (p, q): no maximum. -/
theorem pay2_apply (x0 x1 : Vec Ideal S5000x128 .f32) (x2 x3 : Vec Ideal S128x47 .f32) (p : Fin 5000) (q : Fin 47) :
    k2_pay1 (F := Ideal) x0 x1 x2 x3 (ix2 p q)
      = (∑ k : Fin 128, x0 (ix2 p k) * x2 (ix2 k q)) + ∑ k : Fin 128, x1 (ix2 p k) * x3 (ix2 k q) := by
  unfold k2_pay1
  rw [shapeCast_self, shapeCast_self]
  show FloatOps.matmul dot_S5000x128_S128x47_S5000x47_1_0_0_1_n_n none _ _ (constant S5000x47 .f32 0x00000000#32) (ix2 p q)
      + FloatOps.matmul dot_S5000x128_S128x47_S5000x47_1_0_0_1_n_n none _ _ (constant S5000x47 .f32 0x00000000#32) (ix2 p q) = _
  rw [Ideal.matmul_constant_zero_apply, Ideal.matmul_constant_zero_apply, kdot47_sum, kdot47_sum]
  rfl

end Cert.Sage.Block

end
-- ==== Proof.Spec.lean ====
/-
  The function both programs compute, one layer at a time, over the extended reals.

  A layer takes the node features `h` (100000 nodes, 128 features each), the neighbourhood means `hn` of the same
  shape, and two weight matrices, and returns, at node `p` and output feature `q`,

      ∑ₖ h[p,k] · ws[k,q]  +  ∑ₖ hn[p,k] · wn[k,q]          (k over the 128 input features),

  followed, on the two hidden layers, by the maximum with zero. Both programs form these same two sums, over the
  same index set and added in the same order, so they agree on every extended real, infinite entries included:
  no distributivity or cancellation (the laws that fail at infinities) stands between them.
-/
import Idealize.ShloMosaic.PureOps.Ideal
import Idealize.ShloMosaic.Lib.ValueIdx

noncomputable section

namespace Cert.Sage

open Idealize.ShloMosaic Idealize.ShloMosaic.ValueIdx

/-- Node features: 100000 nodes, 128 features. -/
abbrev SNodes128 : Shape := ⟨2, ![100000, 128]⟩
/-- The output layer's node features: 100000 nodes, 47 classes. -/
abbrev SNodes47 : Shape := ⟨2, ![100000, 47]⟩
/-- A hidden layer's weights. -/
abbrev SW128 : Shape := ⟨2, ![128, 128]⟩
/-- The output layer's weights. -/
abbrev SW47 : Shape := ⟨2, ![128, 47]⟩

/-- One entry of a hidden layer before the maximum: the self path's inner product plus the neighbour path's. -/
def dualAt128 (h hn : FVec Ideal SNodes128 .f32) (ws wn : FVec Ideal SW128 .f32) (p : Fin 100000) (q : Fin 128) : Ideal .f32 :=
  (∑ k : Fin 128, h (ix2 p k) * ws (ix2 k q)) + ∑ k : Fin 128, hn (ix2 p k) * wn (ix2 k q)

/-- One entry of the output layer. -/
def dualAt47 (h hn : FVec Ideal SNodes128 .f32) (ws wn : FVec Ideal SW47 .f32) (p : Fin 100000) (q : Fin 47) : Ideal .f32 :=
  (∑ k : Fin 128, h (ix2 p k) * ws (ix2 k q)) + ∑ k : Fin 128, hn (ix2 p k) * wn (ix2 k q)

/-- A hidden layer as a whole array: every entry's two inner products, then the maximum with zero. -/
def hidden (h hn : FVec Ideal SNodes128 .f32) (ws wn : FVec Ideal SW128 .f32) : FVec Ideal SNodes128 .f32 :=
  fun j => max (dualAt128 h hn ws wn (j 0) (j 1)) (Ideal.ofBits .f32 0x00000000#32)

/-- The output layer as a whole array: every entry's two inner products, no maximum. -/
def output (h hn : FVec Ideal SNodes128 .f32) (ws wn : FVec Ideal SW47 .f32) : FVec Ideal SNodes47 .f32 :=
  fun j => dualAt47 h hn ws wn (j 0) (j 1)

theorem hidden_apply (h hn : FVec Ideal SNodes128 .f32) (ws wn : FVec Ideal SW128 .f32) (p : Fin 100000) (q : Fin 128) :
    hidden h hn ws wn (ix2 p q) = max (dualAt128 h hn ws wn p q) (Ideal.ofBits .f32 0x00000000#32) := rfl

theorem output_apply (h hn : FVec Ideal SNodes128 .f32) (ws wn : FVec Ideal SW47 .f32) (p : Fin 100000) (q : Fin 47) :
    output h hn ws wn (ix2 p q) = dualAt47 h hn ws wn p q := rfl

end Cert.Sage

end
-- ==== Proof.Region0.lean ====
/-
  The first hidden layer's region: its result array as one function of the arrays it finds.

  The region runs the body at 20 grid points; point `t` reads rows 5000·t … 5000·t + 4999 of the node features and
  of the neighbourhood means, the two weight matrices whole, and writes back the same rows of the result. Row
  5000·t + p of the result is therefore the body's row p at point t, whose entries are the layer's inner products
  over rows of the SAME index of the two inputs; the 20 row blocks are disjoint and fill the 100000 rows (row r lies
  in block r / 5000), so after the last write-back the whole result array is the layer's function of the arrays the
  region found on entry.
-/
import proofs.«104483_j29841432773054_1_alg».proof.Proof.Gen.KernelIdeal.Frame
import proofs.«104483_j29841432773054_1_alg».proof.Proof.Payload
import proofs.«104483_j29841432773054_1_alg».proof.Proof.Spec
import Idealize.ShloMosaic.Lib.Pipeline.Value
import Idealize.ShloMosaic.Lib.ValueIdx

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen

-- `V`: the contents of the TensorCore's buffers when the region is entered.
variable (V : (c : Dev nD) → (b : Ref sig .tc) → Buf (Elt Ideal) ((c : Thread nD τ).loc b))

theorem origin_zero : (![0, 0] : Fin 2 → Nat) = fun _ => 0 := funext fun a => by fin_cases a <;> rfl

/-- The block indices at grid point `t`: the two row-blocked inputs and the output sit at row block `t`, column block
    0; the two weight matrices are one block each. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- What point `t` writes back is rows 5000·t … of the layer's function of the entry arrays. -/
theorem flushed_eq (c : Dev nD) (t : Fin cfg0.N) :
    (dat0 V c).flushed 4 t = ((cfg0.win 4).blk t).view.read (Elt Ideal)
      (Cert.Sage.hidden (V c main_arg0) (V c main_v18) (V c main_arg1) (V c main_arg2)) := by
  show (cfg0.win 4).cut (grid0.coords t) ((dat0 V c).after 4 t) = _
  rw [after0_4]
  unfold out0_4
  rw [View.canon_unit_zero origin_zero]
  simp only [View.ld_unit_zero (S := S5000x128) origin_zero, View.ld_unit_zero (S := S128x128) origin_zero]
  obtain ⟨e00, e01, e10, e11, e20, e21, e30, e31, e40, e41⟩ := block_indices t
  have ht := point_lt t
  funext y
  obtain ⟨p, q, rfl⟩ : ∃ (p : Fin 5000) (q : Fin 128), y = ix2 p q := ⟨y 0, y 1, eq_ix2 y⟩
  have hp : p.val < 5000 := p.isLt
  have hP : t.val * 5000 + p.val < 100000 := by omega
  have hemb : ((cfg0.win 4).blk t).view.emb (ix2 p q) = ix2 (⟨t.val * 5000 + p.val, hP⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  have h0 : ∀ k : Fin 128, iblk0 V c 0 t (ix2 p k) = V c main_arg0 (ix2 (⟨t.val * 5000 + p.val, hP⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 p k) = V c main_v18 (ix2 (⟨t.val * 5000 + p.val, hP⟩ : Fin 100000) k) := fun k => by
    show V c main_v18 (((cfg0.win 1).blk t).view.emb (ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  have h2 : ∀ k : Fin 128, iblk0 V c 2 t (ix2 k q) = V c main_arg1 (ix2 k q) := fun k => by
    show V c main_arg1 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have h3 : ∀ k : Fin 128, iblk0 V c 3 t (ix2 k q) = V c main_arg2 (ix2 k q) := fun k => by
    show V c main_arg2 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  refine (Cert.Sage.Block.pay0_apply (iblk0 V c 0 t) (iblk0 V c 1 t) (iblk0 V c 2 t) (iblk0 V c 3 t) p q).trans ?_
  show _ = Cert.Sage.hidden (V c main_arg0) (V c main_v18) (V c main_arg1) (V c main_arg2) (((cfg0.win 4).blk t).view.emb (ix2 p q))
  rw [hemb, Cert.Sage.hidden_apply]
  unfold Cert.Sage.dualAt128
  simp only [h0, h1, h2, h3]

/-- An index of the result array is in point `t`'s block iff each coordinate is in the block's range. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19).slice (win0_4.rect t)).set ↔ _
  rw [View.set_slice_whole, Rect.mem_set_unit]
  exact Iff.rfl

/-- Every row of the result is written by some point: row r by point r / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  have hlt : (i 0).val / 5000 < cfg0.N := by show _ < grid0.N; omega
  obtain ⟨-, -, -, -, -, -, -, -, e40, e41⟩ := block_indices ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    have e : win0_4.index ⟨(i 0).val / 5000, hlt⟩ (0 : Fin 2) = (i 0).val / 5000 := e40
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    omega

/-- The result array after the region: the layer's function of the arrays the region found on entry. -/
theorem final (c : Dev nD) :
    (dat0 V c).arrAt 4 cfg0.N = Cert.Sage.hidden (V c main_arg0) (V c main_v18) (V c main_arg1) (V c main_arg2) :=
  (dat0 V c).arrAt_eq_of_cover 4 _ (fun t _ => flushed_eq V c t) (cover)

end Cert.Sage.Region0

end
-- ==== Proof.Region1.lean ====
/-
  The second hidden layer's region: its result array as one function of the arrays it finds.

  The region runs the body at 20 grid points; point `t` reads rows 5000·t … 5000·t + 4999 of the node features and
  of the neighbourhood means, the two weight matrices whole, and writes back the same rows of the result. Row
  5000·t + p of the result is therefore the body's row p at point t, whose entries are the layer's inner products
  over rows of the SAME index of the two inputs; the 20 row blocks are disjoint and fill the 100000 rows (row r lies
  in block r / 5000), so after the last write-back the whole result array is the layer's function of the arrays the
  region found on entry.
-/
import proofs.«104483_j29841432773054_1_alg».proof.Proof.Gen.KernelIdeal.Frame
import proofs.«104483_j29841432773054_1_alg».proof.Proof.Payload
import proofs.«104483_j29841432773054_1_alg».proof.Proof.Spec
import Idealize.ShloMosaic.Lib.Pipeline.Value
import Idealize.ShloMosaic.Lib.ValueIdx

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen

-- `V`: the contents of the TensorCore's buffers when the region is entered.
variable (V : (c : Dev nD) → (b : Ref sig .tc) → Buf (Elt Ideal) ((c : Thread nD τ).loc b))

theorem origin_zero : (![0, 0] : Fin 2 → Nat) = fun _ => 0 := funext fun a => by fin_cases a <;> rfl

/-- The block indices at grid point `t`: the two row-blocked inputs and the output sit at row block `t`, column block
    0; the two weight matrices are one block each. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 20 := lt_of_lt_of_eq t.isLt N_1

/-- What point `t` writes back is rows 5000·t … of the layer's function of the entry arrays. -/
theorem flushed_eq (c : Dev nD) (t : Fin cfg1.N) :
    (dat1 V c).flushed 4 t = ((cfg1.win 4).blk t).view.read (Elt Ideal)
      (Cert.Sage.hidden (V c main_v19) (V c main_v38) (V c main_arg3) (V c main_arg4)) := by
  show (cfg1.win 4).cut (grid1.coords t) ((dat1 V c).after 4 t) = _
  rw [after1_4]
  unfold out1_4
  rw [View.canon_unit_zero origin_zero]
  simp only [View.ld_unit_zero (S := S5000x128) origin_zero, View.ld_unit_zero (S := S128x128) origin_zero]
  obtain ⟨e00, e01, e10, e11, e20, e21, e30, e31, e40, e41⟩ := block_indices t
  have ht := point_lt t
  funext y
  obtain ⟨p, q, rfl⟩ : ∃ (p : Fin 5000) (q : Fin 128), y = ix2 p q := ⟨y 0, y 1, eq_ix2 y⟩
  have hp : p.val < 5000 := p.isLt
  have hP : t.val * 5000 + p.val < 100000 := by omega
  have hemb : ((cfg1.win 4).blk t).view.emb (ix2 p q) = ix2 (⟨t.val * 5000 + p.val, hP⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : ∀ k : Fin 128, iblk1 V c 0 t (ix2 p k) = V c main_v19 (ix2 (⟨t.val * 5000 + p.val, hP⟩ : Fin 100000) k) := fun k => by
    show V c main_v19 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix2 p k) = V c main_v38 (ix2 (⟨t.val * 5000 + p.val, hP⟩ : Fin 100000) k) := fun k => by
    show V c main_v38 (((cfg1.win 1).blk t).view.emb (ix2 p k)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : ∀ k : Fin 128, iblk1 V c 2 t (ix2 k q) = V c main_arg3 (ix2 k q) := fun k => by
    show V c main_arg3 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have h3 : ∀ k : Fin 128, iblk1 V c 3 t (ix2 k q) = V c main_arg4 (ix2 k q) := fun k => by
    show V c main_arg4 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  refine (Cert.Sage.Block.pay1_apply (iblk1 V c 0 t) (iblk1 V c 1 t) (iblk1 V c 2 t) (iblk1 V c 3 t) p q).trans ?_
  show _ = Cert.Sage.hidden (V c main_v19) (V c main_v38) (V c main_arg3) (V c main_arg4) (((cfg1.win 4).blk t).view.emb (ix2 p q))
  rw [hemb, Cert.Sage.hidden_apply]
  unfold Cert.Sage.dualAt128
  simp only [h0, h1, h2, h3]

/-- An index of the result array is in point `t`'s block iff each coordinate is in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v39).slice (win1_4.rect t)).set ↔ _
  rw [View.set_slice_whole, Rect.mem_set_unit]
  exact Iff.rfl

/-- Every row of the result is written by some point: row r by point r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have hlt : (i 0).val / 5000 < cfg1.N := by show _ < grid1.N; omega
  obtain ⟨-, -, -, -, -, -, -, -, e40, e41⟩ := block_indices ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    have e : win1_4.index ⟨(i 0).val / 5000, hlt⟩ (0 : Fin 2) = (i 0).val / 5000 := e40
    omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    omega

/-- The result array after the region: the layer's function of the arrays the region found on entry. -/
theorem final (c : Dev nD) :
    (dat1 V c).arrAt 4 cfg1.N = Cert.Sage.hidden (V c main_v19) (V c main_v38) (V c main_arg3) (V c main_arg4) :=
  (dat1 V c).arrAt_eq_of_cover 4 _ (fun t _ => flushed_eq V c t) (cover)

end Cert.Sage.Region1

end
-- ==== Proof.Region2.lean ====
/-
  The output layer's region: its result array as one function of the arrays it finds.

  The region runs the body at 20 grid points; point `t` reads rows 5000·t … 5000·t + 4999 of the node features and
  of the neighbourhood means, the two weight matrices whole, and writes back the same rows of the result. Row
  5000·t + p of the result is therefore the body's row p at point t, whose entries are the layer's inner products
  over rows of the SAME index of the two inputs; the 20 row blocks are disjoint and fill the 100000 rows (row r lies
  in block r / 5000), so after the last write-back the whole result array is the layer's function of the arrays the
  region found on entry.
-/
import proofs.«104483_j29841432773054_1_alg».proof.Proof.Gen.KernelIdeal.Frame
import proofs.«104483_j29841432773054_1_alg».proof.Proof.Payload
import proofs.«104483_j29841432773054_1_alg».proof.Proof.Spec
import Idealize.ShloMosaic.Lib.Pipeline.Value
import Idealize.ShloMosaic.Lib.ValueIdx

set_option maxRecDepth 16384

noncomputable section

namespace Cert.Sage.Region2

open Idealize.ShloMosaic Idealize.ShloMosaic.TcCoe Idealize.ShloMosaic.ValueIdx Idealize.SL.Sem
open Cert.KernelIdeal Cert.KernelIdeal.Gen

-- `V`: the contents of the TensorCore's buffers when the region is entered.
variable (V : (c : Dev nD) → (b : Ref sig .tc) → Buf (Elt Ideal) ((c : Thread nD τ).loc b))

theorem origin_zero : (![0, 0] : Fin 2 → Nat) = fun _ => 0 := funext fun a => by fin_cases a <;> rfl

/-- The block indices at grid point `t`: the two row-blocked inputs and the output sit at row block `t`, column block
    0; the two weight matrices are one block each. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 20 := lt_of_lt_of_eq t.isLt N_2

/-- What point `t` writes back is rows 5000·t … of the layer's function of the entry arrays. -/
theorem flushed_eq (c : Dev nD) (t : Fin cfg2.N) :
    (dat2 V c).flushed 4 t = ((cfg2.win 4).blk t).view.read (Elt Ideal)
      (Cert.Sage.output (V c main_v39) (V c main_v58) (V c main_arg5) (V c main_arg6)) := by
  show (cfg2.win 4).cut (grid2.coords t) ((dat2 V c).after 4 t) = _
  rw [after2_4]
  unfold out2_4
  rw [View.canon_unit_zero origin_zero]
  simp only [View.ld_unit_zero (S := S5000x128) origin_zero, View.ld_unit_zero (S := S128x47) origin_zero]
  obtain ⟨e00, e01, e10, e11, e20, e21, e30, e31, e40, e41⟩ := block_indices t
  have ht := point_lt t
  funext y
  obtain ⟨p, q, rfl⟩ : ∃ (p : Fin 5000) (q : Fin 47), y = ix2 p q := ⟨y 0, y 1, eq_ix2 y⟩
  have hp : p.val < 5000 := p.isLt
  have hP : t.val * 5000 + p.val < 100000 := by omega
  have hemb : ((cfg2.win 4).blk t).view.emb (ix2 p q) = ix2 (⟨t.val * 5000 + p.val, hP⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 47 + 1 * q.val = q.val; omega
  have h0 : ∀ k : Fin 128, iblk2 V c 0 t (ix2 p k) = V c main_v39 (ix2 (⟨t.val * 5000 + p.val, hP⟩ : Fin 100000) k) := fun k => by
    show V c main_v39 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 p k) = V c main_v58 (ix2 (⟨t.val * 5000 + p.val, hP⟩ : Fin 100000) k) := fun k => by
    show V c main_v58 (((cfg2.win 1).blk t).view.emb (ix2 p k)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ∀ k : Fin 128, iblk2 V c 2 t (ix2 k q) = V c main_arg5 (ix2 k q) := fun k => by
    show V c main_arg5 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 47 + 1 * q.val = q.val; omega
  have h3 : ∀ k : Fin 128, iblk2 V c 3 t (ix2 k q) = V c main_arg6 (ix2 k q) := fun k => by
    show V c main_arg6 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 47 + 1 * q.val = q.val; omega
  refine (Cert.Sage.Block.pay2_apply (iblk2 V c 0 t) (iblk2 V c 1 t) (iblk2 V c 2 t) (iblk2 V c 3 t) p q).trans ?_
  show _ = Cert.Sage.output (V c main_v39) (V c main_v58) (V c main_arg5) (V c main_arg6) (((cfg2.win 4).blk t).view.emb (ix2 p q))
  rw [hemb, Cert.Sage.output_apply]
  unfold Cert.Sage.dualAt47
  simp only [h0, h1, h2, h3]

/-- An index of the result array is in point `t`'s block iff each coordinate is in the block's range. -/
theorem mem_blk (t : Fin cfg2.N) (i : S100000x47.Idx) :
    i ∈ ((cfg2.win 4).blk t).view.set ↔ ∀ a : Fin 2, win2_4.index t a * S5000x47.size a ≤ (i a).val ∧ (i a).val < win2_4.index t a * S5000x47.size a + S5000x47.size a := by
  show i ∈ ((View.whole main_v59).slice (win2_4.rect t)).set ↔ _
  rw [View.set_slice_whole, Rect.mem_set_unit]
  exact Iff.rfl

/-- Every row of the result is written by some point: row r by point r / 5000. -/
theorem cover (i : S100000x47.Idx) :
    ∃ t : Fin cfg2.N, (cfg2.win 4).flush t = true ∧ i ∈ ((cfg2.win 4).blk t).view.set := by
  have hi0 : (i 0).val < 100000 := (i 0).isLt
  have hi1 : (i 1).val < 47 := (i 1).isLt
  have hN : grid2.N = 20 := N_2
  have hlt : (i 0).val / 5000 < cfg2.N := by show _ < grid2.N; omega
  obtain ⟨-, -, -, -, -, -, -, -, e40, e41⟩ := block_indices ⟨(i 0).val / 5000, hlt⟩
  refine ⟨⟨(i 0).val / 5000, hlt⟩, flush2_4 _, ?_⟩
  rw [mem_blk]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    have e : win2_4.index ⟨(i 0).val / 5000, hlt⟩ (0 : Fin 2) = (i 0).val / 5000 := e40
    omega
  | ⟨1, _⟩ =>
    show win2_4.index ⟨(i 0).val / 5000, hlt⟩ (1 : Fin 2) * 47 ≤ (i 1).val ∧ (i 1).val < win2_4.index ⟨(i 0).val / 5000, hlt⟩ (1 : Fin 2) * 47 + 47
    omega

/-- The result array after the region: the layer's function of the arrays the region found on entry. -/
theorem final (c : Dev nD) :
    (dat2 V c).arrAt 4 cfg2.N = Cert.Sage.output (V c main_v39) (V c main_v58) (V c main_arg5) (V c main_arg6) :=
  (dat2 V c).arrAt_eq_of_cover 4 _ (fun t _ => flushed_eq V c t) (cover)

end Cert.Sage.Region2

end
-- ==== Proof.Net.lean ====
/-
  The three layers composed, over any neighbourhood-mean operator `agg` (the edge lists are inside it): two hidden
  layers, each fed the previous features and their neighbourhood means, then the output layer.
-/
import proofs.«104483_j29841432773054_1_alg».proof.Proof.Spec

noncomputable section

namespace Cert.Sage

open Idealize.ShloMosaic

/-- The network's result: `h₁ = hidden x (agg x)`, `h₂ = hidden h₁ (agg h₁)`, `output h₂ (agg h₂)`, each layer with its own
    pair of weight matrices. -/
def net (agg : FVec Ideal SNodes128 .f32 → FVec Ideal SNodes128 .f32) (x : FVec Ideal SNodes128 .f32)
    (w0s w0n w1s w1n : FVec Ideal SW128 .f32) (w2s w2n : FVec Ideal SW47 .f32) : FVec Ideal SNodes47 .f32 :=
  output (hidden (hidden x (agg x) w0s w0n) (agg (hidden x (agg x) w0s w0n)) w1s w1n)
    (agg (hidden (hidden x (agg x) w0s w0n) (agg (hidden x (agg x) w0s w0n)) w1s w1n)) w2s w2n

end Cert.Sage

end
-- ==== Proof.Agg.lean ====
/-
  The neighbourhood mean, the part both programs leave to the host and spell identically.

  For node features `x`, edge sources `src` and edge destinations `dst` (1600000 edges): a negative source index is
  wrapped by adding 100000; the source rows are gathered, one per edge; the gathered rows are added into a zero
  array at each edge's destination row, and ones are added into a zero vector at each destination (its in-degree);
  each summed row is divided by the larger of its node's in-degree and one.
  The two programs print this with the same operations on the same literals, each over its own copy of the
  dimension records; the copies have the same fields, so the two spellings are one function.
-/
import proofs.«104483_j29841432773054_1_alg».proof.Proof.Gen.KernelIdeal
import proofs.«104483_j29841432773054_1_alg».proof.Proof.Gen.ReferenceIdeal
import Idealize.ShloMosaic.PureOps.Ideal

noncomputable section

namespace Cert.Sage

open Idealize.ShloMosaic

section KernelSide
open Cert.KernelIdeal Cert.KernelIdeal.Facts₀

/-- The neighbourhood mean as the kernel's host program spells it. -/
def aggK (x : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))

end KernelSide

section ReferenceSide
open Cert.ReferenceIdeal Cert.ReferenceIdeal.Facts₀

/-- The neighbourhood mean as the reference spells it. -/
def aggR (x : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))

end ReferenceSide

/-- The two spellings are the same function: the same operations, literals and dimension records. -/
theorem aggR_eq_aggK (x : (⟨Cert.ReferenceIdeal.S100000x128, .f32⟩ : BufTy).Contents (Elt Ideal))
    (src dst : (⟨Cert.ReferenceIdeal.S1600000, .i32⟩ : BufTy).Contents (Elt Ideal)) :
    aggR x src dst = aggK x src dst := rfl

end Cert.Sage

end
-- ==== Proof.Stretch.lean ====
/-
  The host stretches between the regions.

  Each of the three stretches of host operations computes, from the current node features and the two edge lists,
  the neighbourhood mean (25 operations: the index wrap, the gather, the two scatter-adds, the degree floor, the
  division) into a buffer of its own, and writes nothing else that is read later: the weights, the edge lists and
  the features it read keep their contents.
-/
import proofs.«104483_j29841432773054_1_alg».proof.Proof.Gen.KernelIdeal.Launch
import proofs.«104483_j29841432773054_1_alg».proof.Proof.Agg
import Idealize.ShloMosaic.Lib.StableHlo.Run

set_option maxRecDepth 16384

noncomputable section

namespace Cert.Sage.Stretch

open Idealize.ShloMosaic Idealize.ShloMosaic.TcCoe Idealize.ShloMosaic.StableHlo Idealize.SL.Sem
open Cert.KernelIdeal Cert.KernelIdeal.Gen

/-! ### What each stretch computes -/

set_option maxHeartbeats 8000000 in
/-- Stretch 0 leaves in `main_v18` the neighbourhood mean of `main_arg0` over the edge lists, as those buffers stand on entry. -/
theorem mean0 (W : Valuation τ sig (Elt Ideal)) :
    StableHlo.after (hostOps0 (F := Ideal)) W (Proc.devRef .tc main_v18)
      = Cert.Sage.aggK (W (Proc.devRef .tc main_arg0)) (W (Proc.devRef .tc main_arg7)) (W (Proc.devRef .tc main_arg8)) := by
  after_results_simp <;> rfl

set_option maxHeartbeats 8000000 in
/-- Stretch 1 leaves in `main_v38` the neighbourhood mean of `main_v19` over the edge lists, as those buffers stand on entry. -/
theorem mean1 (W : Valuation τ sig (Elt Ideal)) :
    StableHlo.after (hostOps1 (F := Ideal)) W (Proc.devRef .tc main_v38)
      = Cert.Sage.aggK (W (Proc.devRef .tc main_v19)) (W (Proc.devRef .tc main_arg7)) (W (Proc.devRef .tc main_arg8)) := by
  after_results_simp <;> rfl

set_option maxHeartbeats 8000000 in
/-- Stretch 2 leaves in `main_v58` the neighbourhood mean of `main_v39` over the edge lists, as those buffers stand on entry. -/
theorem mean2 (W : Valuation τ sig (Elt Ideal)) :
    StableHlo.after (hostOps2 (F := Ideal)) W (Proc.devRef .tc main_v58)
      = Cert.Sage.aggK (W (Proc.devRef .tc main_v39)) (W (Proc.devRef .tc main_arg7)) (W (Proc.devRef .tc main_arg8)) := by
  after_results_simp <;> rfl

/-! ### What each stretch keeps -/

theorem keep0_main_arg0 (W : Valuation τ sig (Elt Ideal)) :
    StableHlo.after (hostOps0 (F := Ideal)) W (Proc.devRef .tc main_arg0) = W (Proc.devRef .tc main_arg0) := by
  after_results <;> rfl

theorem keep0_main_arg1 (W : Valuation τ sig (Elt Ideal)) :
    StableHlo.after (hostOps0 (F := Ideal)) W (Proc.devRef .tc main_arg1) = W (Proc.devRef .tc main_arg1) := by
  after_results <;> rfl

theorem keep0_main_arg2 (W : Valuation τ sig (Elt Ideal)) :
    StableHlo.after (hostOps0 (F := Ideal)) W (Proc.devRef .tc main_arg2) = W (Proc.devRef .tc main_arg2) := by
  after_results <;> rfl

theorem keep0_main_arg3 (W : Valuation τ sig (Elt Ideal)) :
    StableHlo.after (hostOps0 (F := Ideal)) W (Proc.devRef .tc main_arg3) = W (Proc.devRef .tc main_arg3) := by
  after_results <;> rfl

theorem keep0_main_arg4 (W : Valuation τ sig (Elt Ideal)) :
    StableHlo.after (hostOps0 (F := Ideal)) W (Proc.devRef .tc main_arg4) = W (Proc.devRef .tc main_arg4) := by
  after_results <;> rfl

theorem keep0_main_arg5 (W : Valuation τ sig (Elt Ideal)) :
    StableHlo.after (hostOps0 (F := Ideal)) W (Proc.devRef .tc main_arg5) = W (Proc.devRef .tc main_arg5) := by
  after_results <;> rfl

theorem keep0_main_arg6 (W : Valuation τ sig (Elt Ideal)) :
    StableHlo.after (hostOps0 (F := Ideal)) W (Proc.devRef .tc main_arg6) = W (Proc.devRef .tc main_arg6) := by
  after_results <;> rfl

theorem keep0_main_arg7 (W : Valuation τ sig (Elt Ideal)) :
    StableHlo.after (hostOps0 (F := Ideal)) W (Proc.devRef .tc main_arg7) = W (Proc.devRef .tc main_arg7) := by
  after_results <;> rfl

theorem keep0_main_arg8 (W : Valuation τ sig (Elt Ideal)) :
    StableHlo.after (hostOps0 (F := Ideal)) W (Proc.devRef .tc main_arg8) = W (Proc.devRef .tc main_arg8) := by
  after_results <;> rfl

theorem keep1_main_v19 (W : Valuation τ sig (Elt Ideal)) :
    StableHlo.after (hostOps1 (F := Ideal)) W (Proc.devRef .tc main_v19) = W (Proc.devRef .tc main_v19) := by
  after_results <;> rfl

theorem keep1_main_arg3 (W : Valuation τ sig (Elt Ideal)) :
    StableHlo.after (hostOps1 (F := Ideal)) W (Proc.devRef .tc main_arg3) = W (Proc.devRef .tc main_arg3) := by
  after_results <;> rfl

theorem keep1_main_arg4 (W : Valuation τ sig (Elt Ideal)) :
    StableHlo.after (hostOps1 (F := Ideal)) W (Proc.devRef .tc main_arg4) = W (Proc.devRef .tc main_arg4) := by
  after_results <;> rfl

theorem keep1_main_arg5 (W : Valuation τ sig (Elt Ideal)) :
    StableHlo.after (hostOps1 (F := Ideal)) W (Proc.devRef .tc main_arg5) = W (Proc.devRef .tc main_arg5) := by
  after_results <;> rfl

theorem keep1_main_arg6 (W : Valuation τ sig (Elt Ideal)) :
    StableHlo.after (hostOps1 (F := Ideal)) W (Proc.devRef .tc main_arg6) = W (Proc.devRef .tc main_arg6) := by
  after_results <;> rfl

theorem keep1_main_arg7 (W : Valuation τ sig (Elt Ideal)) :
    StableHlo.after (hostOps1 (F := Ideal)) W (Proc.devRef .tc main_arg7) = W (Proc.devRef .tc main_arg7) := by
  after_results <;> rfl

theorem keep1_main_arg8 (W : Valuation τ sig (Elt Ideal)) :
    StableHlo.after (hostOps1 (F := Ideal)) W (Proc.devRef .tc main_arg8) = W (Proc.devRef .tc main_arg8) := by
  after_results <;> rfl

theorem keep2_main_v39 (W : Valuation τ sig (Elt Ideal)) :
    StableHlo.after (hostOps2 (F := Ideal)) W (Proc.devRef .tc main_v39) = W (Proc.devRef .tc main_v39) := by
  after_results <;> rfl

theorem keep2_main_arg5 (W : Valuation τ sig (Elt Ideal)) :
    StableHlo.after (hostOps2 (F := Ideal)) W (Proc.devRef .tc main_arg5) = W (Proc.devRef .tc main_arg5) := by
  after_results <;> rfl

theorem keep2_main_arg6 (W : Valuation τ sig (Elt Ideal)) :
    StableHlo.after (hostOps2 (F := Ideal)) W (Proc.devRef .tc main_arg6) = W (Proc.devRef .tc main_arg6) := by
  after_results <;> rfl

theorem keep2_main_arg7 (W : Valuation τ sig (Elt Ideal)) :
    StableHlo.after (hostOps2 (F := Ideal)) W (Proc.devRef .tc main_arg7) = W (Proc.devRef .tc main_arg7) := by
  after_results <;> rfl

theorem keep2_main_arg8 (W : Valuation τ sig (Elt Ideal)) :
    StableHlo.after (hostOps2 (F := Ideal)) W (Proc.devRef .tc main_arg8) = W (Proc.devRef .tc main_arg8) := by
  after_results <;> rfl

end Cert.Sage.Stretch

end
-- ==== Proof.KernelRun.lean ====
/-
  The idealized kernel's run, with its result named.

  The program is six segments: a host stretch computing the neighbourhood mean, then a region computing a layer,
  three times over. Following the buffers through them: the first region finds the input features, their mean and
  the first pair of weights, and leaves the first hidden layer's features; the second stretch takes the mean of
  those; the second region leaves the second hidden layer's features; the third stretch takes their mean; the third
  region leaves the output layer's values. The weights and the edge lists are written by no segment, so every
  segment finds them as launched. Every weakly fair execution therefore ends with the result buffer holding the
  network's function of the nine arguments, and the arguments unchanged.
-/
import proofs.«104483_j29841432773054_1_alg».proof.Proof.Gen.KernelIdeal.Frame
import proofs.«104483_j29841432773054_1_alg».proof.Proof.Region0
import proofs.«104483_j29841432773054_1_alg».proof.Proof.Region1
import proofs.«104483_j29841432773054_1_alg».proof.Proof.Region2
import proofs.«104483_j29841432773054_1_alg».proof.Proof.Net
import proofs.«104483_j29841432773054_1_alg».proof.Proof.Agg
import proofs.«104483_j29841432773054_1_alg».proof.Proof.Stretch

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The features after each layer, as functions of the launch memory -/

/-- The first hidden layer's features. -/
def feat1 (c : Dev nD) : FVec Ideal Cert.Sage.SNodes128 .f32 :=
  Cert.Sage.hidden (m ((c : Thread nD τ).loc main_arg0)) (Cert.Sage.aggK (m ((c : Thread nD τ).loc main_arg0)) (m ((c : Thread nD τ).loc main_arg7)) (m ((c : Thread nD τ).loc main_arg8))) (m ((c : Thread nD τ).loc main_arg1)) (m ((c : Thread nD τ).loc main_arg2))

/-- The second hidden layer's features. -/
def feat2 (c : Dev nD) : FVec Ideal Cert.Sage.SNodes128 .f32 :=
  Cert.Sage.hidden (feat1 m c) (Cert.Sage.aggK (feat1 m c) (m ((c : Thread nD τ).loc main_arg7)) (m ((c : Thread nD τ).loc main_arg8))) (m ((c : Thread nD τ).loc main_arg3)) (m ((c : Thread nD τ).loc main_arg4))

/-- The output layer's values. -/
def result (c : Dev nD) : FVec Ideal Cert.Sage.SNodes47 .f32 :=
  Cert.Sage.output (feat2 m c) (Cert.Sage.aggK (feat2 m c) (m ((c : Thread nD τ).loc main_arg7)) (m ((c : Thread nD τ).loc main_arg8))) (m ((c : Thread nD τ).loc main_arg5)) (m ((c : Thread nD τ).loc main_arg6))

/-- They compose to the network over the kernel's neighbourhood mean. -/
theorem result_eq_net (c : Dev nD) :
    result m c = Cert.Sage.net (fun h => Cert.Sage.aggK h (m ((c : Thread nD τ).loc main_arg7)) (m ((c : Thread nD τ).loc main_arg8))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

/-! ## The buffers at each segment boundary -/

theorem W1_arg0 (c : Dev nD) : W1 m ρ c (Proc.devRef .tc main_arg0) = (m ((c : Thread nD τ).loc main_arg0)) := Cert.Sage.Stretch.keep0_main_arg0 _
theorem W1_arg1 (c : Dev nD) : W1 m ρ c (Proc.devRef .tc main_arg1) = (m ((c : Thread nD τ).loc main_arg1)) := Cert.Sage.Stretch.keep0_main_arg1 _
theorem W1_arg2 (c : Dev nD) : W1 m ρ c (Proc.devRef .tc main_arg2) = (m ((c : Thread nD τ).loc main_arg2)) := Cert.Sage.Stretch.keep0_main_arg2 _
theorem W1_arg3 (c : Dev nD) : W1 m ρ c (Proc.devRef .tc main_arg3) = (m ((c : Thread nD τ).loc main_arg3)) := Cert.Sage.Stretch.keep0_main_arg3 _
theorem W1_arg4 (c : Dev nD) : W1 m ρ c (Proc.devRef .tc main_arg4) = (m ((c : Thread nD τ).loc main_arg4)) := Cert.Sage.Stretch.keep0_main_arg4 _
theorem W1_arg5 (c : Dev nD) : W1 m ρ c (Proc.devRef .tc main_arg5) = (m ((c : Thread nD τ).loc main_arg5)) := Cert.Sage.Stretch.keep0_main_arg5 _
theorem W1_arg6 (c : Dev nD) : W1 m ρ c (Proc.devRef .tc main_arg6) = (m ((c : Thread nD τ).loc main_arg6)) := Cert.Sage.Stretch.keep0_main_arg6 _
theorem W1_arg7 (c : Dev nD) : W1 m ρ c (Proc.devRef .tc main_arg7) = (m ((c : Thread nD τ).loc main_arg7)) := Cert.Sage.Stretch.keep0_main_arg7 _
theorem W1_arg8 (c : Dev nD) : W1 m ρ c (Proc.devRef .tc main_arg8) = (m ((c : Thread nD τ).loc main_arg8)) := Cert.Sage.Stretch.keep0_main_arg8 _
theorem W1_v18 (c : Dev nD) : W1 m ρ c (Proc.devRef .tc main_v18) = Cert.Sage.aggK (m ((c : Thread nD τ).loc main_arg0)) (m ((c : Thread nD τ).loc main_arg7)) (m ((c : Thread nD τ).loc main_arg8)) := Cert.Sage.Stretch.mean0 _

/-- After the first region its result buffer holds the first hidden layer's features. -/
theorem W2_v19 (c : Dev nD) : W2 m ρ c (Proc.devRef .tc main_v19) = feat1 m c :=
  (W2_arr m ρ c 4).trans ((Cert.Sage.Region0.final (V1 m ρ) c).trans (by
    show Cert.Sage.hidden (W1 m ρ c (Proc.devRef .tc main_arg0)) (W1 m ρ c (Proc.devRef .tc main_v18)) (W1 m ρ c (Proc.devRef .tc main_arg1)) (W1 m ρ c (Proc.devRef .tc main_arg2)) = _
    rw [W1_arg0, W1_v18, W1_arg1, W1_arg2]; rfl))
theorem W2_arg3 (c : Dev nD) : W2 m ρ c (Proc.devRef .tc main_arg3) = (m ((c : Thread nD τ).loc main_arg3)) := (W2_of_ne m ρ c main_arg3 (by decide)).trans (W1_arg3 m ρ c)
theorem W2_arg4 (c : Dev nD) : W2 m ρ c (Proc.devRef .tc main_arg4) = (m ((c : Thread nD τ).loc main_arg4)) := (W2_of_ne m ρ c main_arg4 (by decide)).trans (W1_arg4 m ρ c)
theorem W2_arg5 (c : Dev nD) : W2 m ρ c (Proc.devRef .tc main_arg5) = (m ((c : Thread nD τ).loc main_arg5)) := (W2_of_ne m ρ c main_arg5 (by decide)).trans (W1_arg5 m ρ c)
theorem W2_arg6 (c : Dev nD) : W2 m ρ c (Proc.devRef .tc main_arg6) = (m ((c : Thread nD τ).loc main_arg6)) := (W2_of_ne m ρ c main_arg6 (by decide)).trans (W1_arg6 m ρ c)
theorem W2_arg7 (c : Dev nD) : W2 m ρ c (Proc.devRef .tc main_arg7) = (m ((c : Thread nD τ).loc main_arg7)) := (W2_of_ne m ρ c main_arg7 (by decide)).trans (W1_arg7 m ρ c)
theorem W2_arg8 (c : Dev nD) : W2 m ρ c (Proc.devRef .tc main_arg8) = (m ((c : Thread nD τ).loc main_arg8)) := (W2_of_ne m ρ c main_arg8 (by decide)).trans (W1_arg8 m ρ c)

theorem W3_v19 (c : Dev nD) : W3 m ρ c (Proc.devRef .tc main_v19) = feat1 m c := (Cert.Sage.Stretch.keep1_main_v19 (W2 m ρ c)).trans (W2_v19 m ρ c)
theorem W3_v38 (c : Dev nD) : W3 m ρ c (Proc.devRef .tc main_v38) = Cert.Sage.aggK (feat1 m c) (m ((c : Thread nD τ).loc main_arg7)) (m ((c : Thread nD τ).loc main_arg8)) :=
  (Cert.Sage.Stretch.mean1 (W2 m ρ c)).trans (by rw [W2_v19, W2_arg7, W2_arg8])
theorem W3_arg3 (c : Dev nD) : W3 m ρ c (Proc.devRef .tc main_arg3) = (m ((c : Thread nD τ).loc main_arg3)) := (Cert.Sage.Stretch.keep1_main_arg3 (W2 m ρ c)).trans (W2_arg3 m ρ c)
theorem W3_arg4 (c : Dev nD) : W3 m ρ c (Proc.devRef .tc main_arg4) = (m ((c : Thread nD τ).loc main_arg4)) := (Cert.Sage.Stretch.keep1_main_arg4 (W2 m ρ c)).trans (W2_arg4 m ρ c)
theorem W3_arg5 (c : Dev nD) : W3 m ρ c (Proc.devRef .tc main_arg5) = (m ((c : Thread nD τ).loc main_arg5)) := (Cert.Sage.Stretch.keep1_main_arg5 (W2 m ρ c)).trans (W2_arg5 m ρ c)
theorem W3_arg6 (c : Dev nD) : W3 m ρ c (Proc.devRef .tc main_arg6) = (m ((c : Thread nD τ).loc main_arg6)) := (Cert.Sage.Stretch.keep1_main_arg6 (W2 m ρ c)).trans (W2_arg6 m ρ c)
theorem W3_arg7 (c : Dev nD) : W3 m ρ c (Proc.devRef .tc main_arg7) = (m ((c : Thread nD τ).loc main_arg7)) := (Cert.Sage.Stretch.keep1_main_arg7 (W2 m ρ c)).trans (W2_arg7 m ρ c)
theorem W3_arg8 (c : Dev nD) : W3 m ρ c (Proc.devRef .tc main_arg8) = (m ((c : Thread nD τ).loc main_arg8)) := (Cert.Sage.Stretch.keep1_main_arg8 (W2 m ρ c)).trans (W2_arg8 m ρ c)

/-- After the second region its result buffer holds the second hidden layer's features. -/
theorem W4_v39 (c : Dev nD) : W4 m ρ c (Proc.devRef .tc main_v39) = feat2 m c :=
  (W4_arr m ρ c 4).trans ((Cert.Sage.Region1.final (V3 m ρ) c).trans (by
    show Cert.Sage.hidden (W3 m ρ c (Proc.devRef .tc main_v19)) (W3 m ρ c (Proc.devRef .tc main_v38)) (W3 m ρ c (Proc.devRef .tc main_arg3)) (W3 m ρ c (Proc.devRef .tc main_arg4)) = _
    rw [W3_v19, W3_v38, W3_arg3, W3_arg4]; rfl))
theorem W4_arg5 (c : Dev nD) : W4 m ρ c (Proc.devRef .tc main_arg5) = (m ((c : Thread nD τ).loc main_arg5)) := (W4_of_ne m ρ c main_arg5 (by decide)).trans (W3_arg5 m ρ c)
theorem W4_arg6 (c : Dev nD) : W4 m ρ c (Proc.devRef .tc main_arg6) = (m ((c : Thread nD τ).loc main_arg6)) := (W4_of_ne m ρ c main_arg6 (by decide)).trans (W3_arg6 m ρ c)
theorem W4_arg7 (c : Dev nD) : W4 m ρ c (Proc.devRef .tc main_arg7) = (m ((c : Thread nD τ).loc main_arg7)) := (W4_of_ne m ρ c main_arg7 (by decide)).trans (W3_arg7 m ρ c)
theorem W4_arg8 (c : Dev nD) : W4 m ρ c (Proc.devRef .tc main_arg8) = (m ((c : Thread nD τ).loc main_arg8)) := (W4_of_ne m ρ c main_arg8 (by decide)).trans (W3_arg8 m ρ c)

theorem W5_v39 (c : Dev nD) : W5 m ρ c (Proc.devRef .tc main_v39) = feat2 m c := (Cert.Sage.Stretch.keep2_main_v39 (W4 m ρ c)).trans (W4_v39 m ρ c)
theorem W5_v58 (c : Dev nD) : W5 m ρ c (Proc.devRef .tc main_v58) = Cert.Sage.aggK (feat2 m c) (m ((c : Thread nD τ).loc main_arg7)) (m ((c : Thread nD τ).loc main_arg8)) :=
  (Cert.Sage.Stretch.mean2 (W4 m ρ c)).trans (by rw [W4_v39, W4_arg7, W4_arg8])
theorem W5_arg5 (c : Dev nD) : W5 m ρ c (Proc.devRef .tc main_arg5) = (m ((c : Thread nD τ).loc main_arg5)) := (Cert.Sage.Stretch.keep2_main_arg5 (W4 m ρ c)).trans (W4_arg5 m ρ c)
theorem W5_arg6 (c : Dev nD) : W5 m ρ c (Proc.devRef .tc main_arg6) = (m ((c : Thread nD τ).loc main_arg6)) := (Cert.Sage.Stretch.keep2_main_arg6 (W4 m ρ c)).trans (W4_arg6 m ρ c)

/-- After the third region its result buffer holds the network's result. -/
theorem W6_v59 (c : Dev nD) : W6 m ρ c (Proc.devRef .tc main_v59) = result m c :=
  (W6_arr m ρ c 4).trans ((Cert.Sage.Region2.final (V5 m ρ) c).trans (by
    show Cert.Sage.output (W5 m ρ c (Proc.devRef .tc main_v39)) (W5 m ρ c (Proc.devRef .tc main_v58)) (W5 m ρ c (Proc.devRef .tc main_arg5)) (W5 m ρ c (Proc.devRef .tc main_arg6)) = _
    rw [W5_v39, W5_v58, W5_arg5, W5_arg6]; rfl))

/-! ## The run -/

set_option backward.isDefEq.respectTransparency.types false in
/-- Every weakly fair execution of the idealized kernel terminates, nothing faulting, with the result buffer at the
    last boundary's contents and the argument arrays as launched. -/
theorem run_boundary : θ_run defs (onTc (τ := τ) (main (F := Ideal))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The same run with the result read: the network's function of the nine arguments. -/
theorem run : θ_run defs (onTc (τ := τ) (main (F := Ideal))) ⟨m, fun _ => 0, ρ⟩ (fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W6_v59 m ρ c), (h c).2⟩) (run_boundary m ρ)

end Cert.Sage.KRun

end
-- ==== Proof.RefValue.lean ====
/-
  The reference, read as the same network.

  The reference's host program is a straight line of operations; its result is their composed term of the nine
  arguments. Each of its three layers is two `dot_general`s, contracting the 128 features, added (and, in the two
  hidden layers, followed by the maximum with a zero array). Over the extended reals a `dot_general` entry is the
  plain sum over the contracted coordinate, so each layer is the specification's layer, entry by entry.
-/
import proofs.«104483_j29841432773054_1_alg».proof.Proof.Gen.ReferenceIdeal.Run
import proofs.«104483_j29841432773054_1_alg».proof.Proof.Net
import proofs.«104483_j29841432773054_1_alg».proof.Proof.Agg
import Idealize.ShloMosaic.Lib.ValueIdx
import Idealize.ShloMosaic.Lib.Pipeline.Value
import Idealize.ShloMosaic.PureOps.Ideal.Laws

set_option maxRecDepth 16384

noncomputable section

namespace Cert.Sage.Ref

open Idealize.ShloMosaic Idealize.ShloMosaic.TcCoe Idealize.ShloMosaic.ValueIdx Idealize.SL.Sem
open Cert.ReferenceIdeal Cert.ReferenceIdeal.Facts₀

/-! ### A hidden layer's product: [100000, 128] by [128, 128] -/

theorem rdot128_lhs0 (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.lhsIdx i κ 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem rdot128_rhs1 (i : Cert.ReferenceIdeal.S100000x128.Idx) (κ : Cert.ReferenceIdeal.dot_S100000x128_S128x128_S100000x128_1_0_0_1_n_n.contr.Idx) :
    (Cert.ReferenceIdeal.dot_S100000x128_S128x128_S100000x128_1_0_0_1_n_n.rhsIdx i κ 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The contraction of a [100000, 128] by a [128, 128] operand at output entry (p, q): the sum over the 128 shared
    coordinates k of the left operand at (p, k) times the right operand at (k, q). -/
theorem rdot128_sum {φ₁ φ₂ : FTy} (l : FVec Ideal Cert.ReferenceIdeal.S100000x128 φ₁) (r : FVec Ideal Cert.ReferenceIdeal.S128x128 φ₂) (p : Fin 100000) (q : Fin 128) :
    (∑ κ : Cert.ReferenceIdeal.dot_S100000x128_S128x128_S100000x128_1_0_0_1_n_n.contr.Idx, l (Cert.ReferenceIdeal.dot_S100000x128_S128x128_S100000x128_1_0_0_1_n_n.lhsIdx (ix2 p q) κ) * r (Cert.ReferenceIdeal.dot_S100000x128_S128x128_S100000x128_1_0_0_1_n_n.rhsIdx (ix2 p q) κ) : EReal)
      = ∑ k : Fin 128, l (ix2 p k) * r (ix2 k q) := by
  rw [← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((ValueIdx.contrEquiv1 Cert.ReferenceIdeal.dot_S100000x128_S128x128_S100000x128_1_0_0_1_n_n 128 rfl rfl).symm k) = ix2 p k :=
    funext fun a => Fin.ext (by
      match a with
      | ⟨0, _⟩ => exact rdot128_lhs0 _ _
      | ⟨1, _⟩ => exact (Cert.ReferenceIdeal.dot_S100000x128_S128x128_S100000x128_1_0_0_1_n_n.lhsIdx_val_of_single rfl (ix2 p q) _).trans hk)
  have er : Cert.ReferenceIdeal.dot_S100000x128_S128x128_S100000x128_1_0_0_1_n_n.rhsIdx (ix2 p q) ((ValueIdx.contrEquiv1 Cert.ReferenceIdeal.dot_S100000x128_S128x128_S100000x128_1_0_0_1_n_n 128 rfl rfl).symm k) = ix2 k q :=
    funext fun a => Fin.ext (by
      match a with
      | ⟨0, _⟩ => exact (Cert.ReferenceIdeal.dot_S100000x128_S128x128_S100000x128_1_0_0_1_n_n.rhsIdx_val_of_single rfl (ix2 p q) _).trans hk
      | ⟨1, _⟩ => exact rdot128_rhs1 _ _)
  rw [el, er]

/-! ### The output layer's product: [100000, 128] by [128, 47] -/

theorem rdot47_lhs0 (i : Cert.ReferenceIdeal.S100000x47.Idx) (κ : Cert.ReferenceIdeal.dot_S100000x128_S128x47_S100000x47_1_0_0_1_n_n.contr.Idx) :
    (Cert.ReferenceIdeal.dot_S100000x128_S128x47_S100000x47_1_0_0_1_n_n.lhsIdx i κ 0).val = (i 0).val := by
  unfold DotDims.lhsIdx
  rw [dif_neg (show ¬(0 : Fin Cert.ReferenceIdeal.S100000x128.rank) ∈ Cert.ReferenceIdeal.dot_S100000x128_S128x47_S100000x47_1_0_0_1_n_n.lhsBatch by decide),
    dif_pos (show (0 : Fin Cert.ReferenceIdeal.S100000x128.rank) ∈ Cert.ReferenceIdeal.dot_S100000x128_S128x47_S100000x47_1_0_0_1_n_n.lhsNonContracting by decide)]
  rfl

theorem rdot47_rhs1 (i : Cert.ReferenceIdeal.S100000x47.Idx) (κ : Cert.ReferenceIdeal.dot_S100000x128_S128x47_S100000x47_1_0_0_1_n_n.contr.Idx) :
    (Cert.ReferenceIdeal.dot_S100000x128_S128x47_S100000x47_1_0_0_1_n_n.rhsIdx i κ 1).val = (i 1).val := by
  unfold DotDims.rhsIdx
  rw [dif_neg (show ¬(1 : Fin Cert.ReferenceIdeal.S128x47.rank) ∈ Cert.ReferenceIdeal.dot_S100000x128_S128x47_S100000x47_1_0_0_1_n_n.rhsBatch by decide),
    dif_pos (show (1 : Fin Cert.ReferenceIdeal.S128x47.rank) ∈ Cert.ReferenceIdeal.dot_S100000x128_S128x47_S100000x47_1_0_0_1_n_n.rhsNonContracting by decide)]
  rfl

/-- The contraction of a [100000, 128] by a [128, 47] operand at output entry (p, q): the sum over the 128 shared
    coordinates k of the left operand at (p, k) times the right operand at (k, q). -/
theorem rdot47_sum {φ₁ φ₂ : FTy} (l : FVec Ideal Cert.ReferenceIdeal.S100000x128 φ₁) (r : FVec Ideal Cert.ReferenceIdeal.S128x47 φ₂) (p : Fin 100000) (q : Fin 47) :
    (∑ κ : Cert.ReferenceIdeal.dot_S100000x128_S128x47_S100000x47_1_0_0_1_n_n.contr.Idx, l (Cert.ReferenceIdeal.dot_S100000x128_S128x47_S100000x47_1_0_0_1_n_n.lhsIdx (ix2 p q) κ) * r (Cert.ReferenceIdeal.dot_S100000x128_S128x47_S100000x47_1_0_0_1_n_n.rhsIdx (ix2 p q) κ) : EReal)
      = ∑ k : Fin 128, l (ix2 p k) * r (ix2 k q) := by
  rw [← Equiv.sum_comp (ValueIdx.contrEquiv1 Cert.ReferenceIdeal.dot_S100000x128_S128x47_S100000x47_1_0_0_1_n_n 128 rfl rfl).symm]
  refine Finset.sum_congr rfl fun k _ => ?_
  have hk := ValueIdx.contrEquiv1_symm_val Cert.ReferenceIdeal.dot_S100000x128_S128x47_S100000x47_1_0_0_1_n_n 128 rfl rfl k
  have el : Cert.ReferenceIdeal.dot_S100000x128_S128x47_S100000x47_1_0_0_1_n_n.lhsIdx (ix2 p q) ((ValueIdx.contrEquiv1 Cert.ReferenceIdeal.dot_S100000x128_S128x47_S100000x47_1_0_0_1_n_n 128 rfl rfl).symm k) = ix2 p k :=
    funext fun a => Fin.ext (by
      match a with
      | ⟨0, _⟩ => exact rdot47_lhs0 _ _
      | ⟨1, _⟩ => exact (Cert.ReferenceIdeal.dot_S100000x128_S128x47_S100000x47_1_0_0_1_n_n.lhsIdx_val_of_single rfl (ix2 p q) _).trans hk)
  have er : Cert.ReferenceIdeal.dot_S100000x128_S128x47_S100000x47_1_0_0_1_n_n.rhsIdx (ix2 p q) ((ValueIdx.contrEquiv1 Cert.ReferenceIdeal.dot_S100000x128_S128x47_S100000x47_1_0_0_1_n_n 128 rfl rfl).symm k) = ix2 k q :=
    funext fun a => Fin.ext (by
      match a with
      | ⟨0, _⟩ => exact (Cert.ReferenceIdeal.dot_S100000x128_S128x47_S100000x47_1_0_0_1_n_n.rhsIdx_val_of_single rfl (ix2 p q) _).trans hk
      | ⟨1, _⟩ => exact rdot47_rhs1 _ _)
  rw [el, er]

/-! ### The reference's layers -/

/-- A hidden layer as the reference spells it. -/
def layer128 (h hn : FVec Ideal S100000x128 .f32) (ws wn : FVec Ideal S128x128 .f32) :
    FVec Ideal S100000x128 .f32 :=
  maximumf (addf (Host.dotGeneral (F := Ideal) dot_S100000x128_S128x128_S100000x128_1_0_0_1_n_n none h ws)
      (Host.dotGeneral (F := Ideal) dot_S100000x128_S128x128_S100000x128_1_0_0_1_n_n none hn wn))
    (broadcastInDim S100000x128 ![] bcast_S_S100000x128 (constant (F := Ideal) S_ .f32 0x00000000#32))

/-- The output layer as the reference spells it. -/
def layer47 (h hn : FVec Ideal S100000x128 .f32) (ws wn : FVec Ideal S128x47 .f32) :
    FVec Ideal S100000x47 .f32 :=
  addf (Host.dotGeneral (F := Ideal) dot_S100000x128_S128x47_S100000x47_1_0_0_1_n_n none h ws)
    (Host.dotGeneral (F := Ideal) dot_S100000x128_S128x47_S100000x47_1_0_0_1_n_n none hn wn)

theorem layer128_eq (h hn : FVec Ideal S100000x128 .f32) (ws wn : FVec Ideal S128x128 .f32) :
    layer128 h hn ws wn = Cert.Sage.hidden h hn ws wn := by
  funext j
  obtain ⟨p, q, rfl⟩ : ∃ (p : Fin 100000) (q : Fin 128), j = ix2 p q := ⟨j 0, j 1, eq_ix2 j⟩
  rw [Cert.Sage.hidden_apply]
  unfold layer128 Cert.Sage.dualAt128
  show max (FloatOps.dotGeneral dot_S100000x128_S128x128_S100000x128_1_0_0_1_n_n none .single h ws (ix2 p q)
      + FloatOps.dotGeneral dot_S100000x128_S128x128_S100000x128_1_0_0_1_n_n none .single hn wn (ix2 p q)) _ = _
  rw [Ideal.dotGeneral_apply, Ideal.dotGeneral_apply, rdot128_sum, rdot128_sum]
  rfl

theorem layer47_eq (h hn : FVec Ideal S100000x128 .f32) (ws wn : FVec Ideal S128x47 .f32) :
    layer47 h hn ws wn = Cert.Sage.output h hn ws wn := by
  funext j
  obtain ⟨p, q, rfl⟩ : ∃ (p : Fin 100000) (q : Fin 47), j = ix2 p q := ⟨j 0, j 1, eq_ix2 j⟩
  rw [Cert.Sage.output_apply]
  unfold layer47 Cert.Sage.dualAt47
  show FloatOps.dotGeneral dot_S100000x128_S128x47_S100000x47_1_0_0_1_n_n none .single h ws (ix2 p q)
      + FloatOps.dotGeneral dot_S100000x128_S128x47_S100000x47_1_0_0_1_n_n none .single hn wn (ix2 p q) = _
  rw [Ideal.dotGeneral_apply, Ideal.dotGeneral_apply, rdot47_sum, rdot47_sum]

/-! ### The reference's result -/

/-- The reference's composed result term is its three layers over its neighbourhood mean. -/
theorem res_layers (m : (ℓ : Loc nD τ sig) → Buf (Elt Ideal) ℓ) (c : Dev nD) :
    Cert.ReferenceIdeal.Value.res_main_v67 (F := Ideal) m c
      = layer47
          (layer128 (layer128 (m ((c.tc : Thread nD τ).loc main_arg0)) (Cert.Sage.aggR (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)))
            (Cert.Sage.aggR (layer128 (m ((c.tc : Thread nD τ).loc main_arg0)) (Cert.Sage.aggR (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2))) (m ((c.tc : Thread nD τ).loc main_arg7)) (m ((c.tc : Thread nD τ).loc main_arg8))) (m ((c.tc : Thread nD τ).loc main_arg3)) (m ((c.tc : Thread nD τ).loc main_arg4)))
          (Cert.Sage.aggR (layer128 (layer128 (m ((c.tc : Thread nD τ).loc main_arg0)) (Cert.Sage.aggR (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)))
            (Cert.Sage.aggR (layer128 (m ((c.tc : Thread nD τ).loc main_arg0)) (Cert.Sage.aggR (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2))) (m ((c.tc : Thread nD τ).loc main_arg7)) (m ((c.tc : Thread nD τ).loc main_arg8))) (m ((c.tc : Thread nD τ).loc main_arg3)) (m ((c.tc : Thread nD τ).loc main_arg4))) (m ((c.tc : Thread nD τ).loc main_arg7)) (m ((c.tc : Thread nD τ).loc main_arg8)))
          (m ((c.tc : Thread nD τ).loc main_arg5)) (m ((c.tc : Thread nD τ).loc main_arg6)) := rfl

/-- The reference computes the network, over its own spelling of the neighbourhood mean. -/
theorem res_eq (m : (ℓ : Loc nD τ sig) → Buf (Elt Ideal) ℓ) (c : Dev nD) :
    Cert.ReferenceIdeal.Value.res_main_v67 (F := Ideal) m c
      = Cert.Sage.net (fun h => Cert.Sage.aggR h (m ((c.tc : Thread nD τ).loc main_arg7)) (m ((c.tc : Thread nD τ).loc main_arg8))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [res_layers]
  simp only [layer128_eq, layer47_eq]
  rfl

end Cert.Sage.Ref

end
-- ==== Proof.lean ====
/-
  A three-layer graph network with mean aggregation, as a tiled kernel and as plain array code, computes one
  function over the extended reals.

  Each layer maps node features `h` (100000 × 128) to `h · W_self + mean(h) · W_neigh`, where `mean(h)` at a node is the
  sum of `h` over the sources of its incoming edges divided by the larger of its in-degree and one; the two hidden
  layers then take the maximum with zero. The kernel leaves the mean to host operations, spelt exactly as the
  reference spells them, and computes the two products, their sum and the maximum in a region that walks 20 blocks
  of 5000 rows with both 128-row weight matrices whole in every block. A row block of a product depends only on the
  same rows of its left operand, so the 20 blocks written back are the whole-array product's rows; the bf16 casts
  before the products are the identity on extended reals, and a product into a zero accumulator is the plain sum
  over the 128 contracted coordinates, the same sum the reference's contraction forms. No step uses distributivity
  or cancellation, so the equality holds for every extended-real input and the finiteness of the inputs is not needed.

  The three frame claims: the two kernels' from their generated frame proofs, the reference's from its generated
  run. The idealization rewrote no operation, so there is nothing for it to preserve.
-/
import proofs.«104483_j29841432773054_1_alg».proof.Defs
import proofs.«104483_j29841432773054_1_alg».proof.Proof.Gen.Kernel
import proofs.«104483_j29841432773054_1_alg».proof.Proof.Gen.Kernel.Skeleton
import proofs.«104483_j29841432773054_1_alg».proof.Proof.Gen.Kernel.Launch
import proofs.«104483_j29841432773054_1_alg».proof.Proof.Gen.Kernel.Points
import proofs.«104483_j29841432773054_1_alg».proof.Proof.Gen.Kernel.Frame
import proofs.«104483_j29841432773054_1_alg».proof.Proof.Gen.KernelIdeal
import proofs.«104483_j29841432773054_1_alg».proof.Proof.Gen.KernelIdeal.Skeleton
import proofs.«104483_j29841432773054_1_alg».proof.Proof.Gen.KernelIdeal.Launch
import proofs.«104483_j29841432773054_1_alg».proof.Proof.Gen.KernelIdeal.Points
import proofs.«104483_j29841432773054_1_alg».proof.Proof.Gen.KernelIdeal.Frame
import proofs.«104483_j29841432773054_1_alg».proof.Proof.Gen.ReferenceIdeal
import proofs.«104483_j29841432773054_1_alg».proof.Proof.Gen.Pre_finite_inputs
import proofs.«104483_j29841432773054_1_alg».proof.Proof.Gen.ReferenceIdeal.Run
import proofs.«104483_j29841432773054_1_alg».proof.Proof.KernelRun
import proofs.«104483_j29841432773054_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with the arguments unchanged; its frame claim keeps that half. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the nine arguments, the idealized kernel ends with its result buffer at the network's
    function of its arguments (over the kernel's spelling of the neighbourhood mean) and the reference with its
    result at the same network over its own spelling; the arguments agree and the two spellings are one function. -/
theorem algebraic : Cert.algebraic_KernelIdeal_ReferenceIdeal := by
  intro m ρ m' ρ' _ hagree
  refine ⟨fun c => Cert.Sage.KRun.result m c, Cert.Sage.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  show Cert.ReferenceIdeal.Value.res_main_v67 (F := Ideal) m' c = Cert.Sage.KRun.result m c
  rw [Cert.Sage.Ref.res_eq, Cert.Sage.KRun.result_eq_net, e0, e1, e2, e3, e4, e5, e6, e7, e8]
  simp only [Cert.Sage.aggR_eq_aggK]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
